-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S256x256 : Shape := ⟨2, ![256, 256]⟩
abbrev S256 : Shape := ⟨1, ![256]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S8x4096x256 .f32) (main_arg1 : FVec F S256x256 .f32) (main_arg2 : FVec F S256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S8x4096x256 : Shape := ⟨3, ![8, 4096, 256]⟩
abbrev S256x256 : Shape := ⟨2, ![256, 256]⟩
abbrev S256 : Shape := ⟨1, ![256]⟩
abbrev S32768x256 : Shape := ⟨2, ![32768, 256]⟩
abbrev S1x256 : Shape := ⟨2, ![1, 256]⟩
abbrev S4096x256 : Shape := ⟨2, ![4096, 256]⟩

abbrev nBuf : Space → Nat
  | .hbm => 7
  | .vmem => 6
  | .smem => 0
  | _ => 0

abbrev bufTy : (tb : Table) → Fin (tcTables nBuf tb) → BufTy
  | .hbm, ⟨0, _⟩ => ⟨S8x4096x256, .f32⟩
  | .hbm, ⟨1, _⟩ => ⟨S256x256, .f32⟩
  | .hbm, ⟨2, _⟩ => ⟨S256, .f32⟩
  | .hbm, ⟨3, _⟩ => ⟨S32768x256, .f32⟩
  | .hbm, ⟨4, _⟩ => ⟨S1x256, .f32⟩
  | .hbm, ⟨5, _⟩ => ⟨S32768x256, .f32⟩
  | .hbm, ⟨6, _⟩ => ⟨S8x4096x256, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x4096x256_S32768x256 : S8x4096x256.ShapeCasts S32768x256
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  shapeCasts_S32768x256_S8x4096x256 : S32768x256.ShapeCasts S8x4096x256
  dot_S4096x256_S256x256_S4096x256_1_1_0_0_n_n_wf : DotDims.WF S4096x256 S256x256 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S32768x256.size a
  hwx0_0 : ∀ i : grid0.Coords, EltTy.bits .f32 = 32 ∨ (Rect.block (s := S32768x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S32768x256.size a
  hwx0_3 : ∀ i : grid0.Coords, EltTy.bits .f32 = 32 ∨ (Rect.block (s := S32768x256) S4096x256.size (cc0_transform_3 i) (hinb0_3 i)).WholeWords (EltTy.packing .f32)

variable [Facts₀]

def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x256 : Shape := ⟨3, ![8, 4096, 256]⟩
abbrev S256x256 : Shape := ⟨2, ![256, 256]⟩
abbrev S256 : Shape := ⟨1, ![256]⟩
abbrev S1x1x256 : Shape := ⟨3, ![1, 1, 256]⟩

abbrev nBuf : Space → Nat
  | .hbm => 7
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S256x256, .f32⟩
  | .hbm, ⟨2, _⟩ => ⟨S256, .f32⟩
  | .hbm, ⟨3, _⟩ => ⟨S8x4096x256, .f32⟩
  | .hbm, ⟨4, _⟩ => ⟨S1x1x256, .f32⟩
  | .hbm, ⟨5, _⟩ => ⟨S8x4096x256, .f32⟩
  | .hbm, ⟨6, _⟩ => ⟨S8x4096x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  dot_S8x4096x256_S256x256_S8x4096x256_2_1_01_0_n_n_wf : DotDims.WF S8x4096x256 S256x256 S8x4096x256 [2] [1] [0, 1] [0] [] []

variable [Facts₀]

def dot_S8x4096x256_S256x256_S8x4096x256_2_1_01_0_n_n : DotDims S8x4096x256 S256x256 S8x4096x256 where
  lhsContracting := [2]
  rhsContracting := [1]
  lhsNonContracting := [0, 1]
  rhsNonContracting := [0]
  lhsBatch := []
  rhsBatch := []
  wf := dot_S8x4096x256_S256x256_S8x4096x256_2_1_01_0_n_n_wf

class Facts : Prop extends Facts₀ where

variable [Facts]
-- ==== Proof.LinearSpec.lean ====
/-
  The linear layer as ONE function of the argument arrays, in the two arrangements the two programs use.

  `flat X W B` is the row form over 32768 rows: entry (r, n) is the dot product of row r of `X` with row n of `W`,
  plus lane n of the one-row bias `B`.  `cube x W b` is the batched form over [8, 4096, 256]: entry (a, s, n) is the
  dot product of the feature row x[a, s, ·] with row n of `W`, plus b[n].

  The two agree through the row-major re-reading of the shapes (`cube_eq`): flat row a·4096 + s is feature row (a, s),
  the one-row bias is the bias vector with a unit axis in front, and reading the flat result back as [8, 4096, 256]
  lands entry (a·4096 + s, n) at (a, s, n).  No arithmetic law is used: both sides are literally the same sum of the
  same products plus the same bias entry, so nothing here asks the entries to be finite.
-/
import Idealize.ShloMosaic.Lib.ValueIdx
import Idealize.ShloMosaic.Lib.Pipeline.Value

noncomputable section

open scoped BigOperators

namespace Cert.Linear

open Idealize.ShloMosaic Idealize.ShloMosaic.ValueIdx

/-- [32768, 256]: the features, one row per (batch, position) pair. -/
abbrev Rows : Shape := ⟨2, ![32768, 256]⟩
/-- [256, 256]: the weight, one row per output channel. -/
abbrev Wt : Shape := ⟨2, ![256, 256]⟩
/-- [1, 256]: the bias as one row. -/
abbrev BiasRow : Shape := ⟨2, ![1, 256]⟩
/-- [256]: the bias. -/
abbrev Bias : Shape := ⟨1, ![256]⟩
/-- [8, 4096, 256]: batch, position, channel. -/
abbrev Cube : Shape := ⟨3, ![8, 4096, 256]⟩

/-- Entry (r, n) of the row form: ∑ₖ X[r, k] · W[n, k] + B[0, n]. -/
def flatAt (X : FVec Ideal Rows .f32) (W : FVec Ideal Wt .f32) (B : FVec Ideal BiasRow .f32) (r : Fin 32768) (n : Fin 256) : EReal :=
  (∑ k : Fin 256, X (ix2 r k) * W (ix2 n k)) + B (ix2 (0 : Fin 1) n)

/-- The row form, as an array over [32768, 256]. -/
def flat (X : FVec Ideal Rows .f32) (W : FVec Ideal Wt .f32) (B : FVec Ideal BiasRow .f32) : FVec Ideal Rows .f32 :=
  fun j => flatAt X W B (j 0) (j 1)

/-- Entry (a, s, n) of the batched form: ∑ₖ x[a, s, k] · W[n, k] + b[n]. -/
def cubeAt (x : FVec Ideal Cube .f32) (W : FVec Ideal Wt .f32) (b : FVec Ideal Bias .f32) (a : Fin 8) (s : Fin 4096) (n : Fin 256) : EReal :=
  (∑ k : Fin 256, x (ix3 a s k) * W (ix2 n k)) + b (ix1 n)

/-- The batched form, as an array over [8, 4096, 256]. -/
def cube (x : FVec Ideal Cube .f32) (W : FVec Ideal Wt .f32) (b : FVec Ideal Bias .f32) : FVec Ideal Cube .f32 :=
  fun i => cubeAt x W b (i 0) (i 1) (i 2)

theorem flat_ix2 (X : FVec Ideal Rows .f32) (W : FVec Ideal Wt .f32) (B : FVec Ideal BiasRow .f32) (r : Fin 32768) (n : Fin 256) :
    flat X W B (ix2 r n) = flatAt X W B r n := rfl

theorem cube_ix3 (x : FVec Ideal Cube .f32) (W : FVec Ideal Wt .f32) (b : FVec Ideal Bias .f32) (a : Fin 8) (s : Fin 4096) (n : Fin 256) :
    cube x W b (ix3 a s n) = cubeAt x W b a s n := rfl

/-- The features re-read as rows: row a·4096 + s is x[a, s, ·]. -/
theorem rows_apply (x : FVec Ideal Cube .f32) (h : Cube.ShapeCasts Rows) (a : Fin 8) (s : Fin 4096) (k : Fin 256)
    (hr : a.val * 4096 + s.val < 32768) :
    shapeCast Rows x h (ix2 ⟨a.val * 4096 + s.val, hr⟩ k) = x (ix3 a s k) :=
  shapeCast_apply x h _ _ (by
    rw [Shape.rowMajor_val_two, Shape.rowMajor_val_three]
    rfl)

/-- The bias re-read as one row: entry (0, n) is b[n]. -/
theorem biasRow_apply (b : FVec Ideal Bias .f32) (h : Bias.ShapeCasts BiasRow) (n : Fin 256) :
    shapeCast BiasRow b h (ix2 (0 : Fin 1) n) = b (ix1 n) :=
  shapeCast_apply b h _ _ (by
    rw [Shape.rowMajor_val_two, Shape.rowMajor_val_one]
    show n.val = 0 * 256 + n.val
    omega)

/-- The row form of the re-read arguments, re-read as [8, 4096, 256], is the batched form of the arguments. -/
theorem cube_eq (x : FVec Ideal Cube .f32) (W : FVec Ideal Wt .f32) (b : FVec Ideal Bias .f32)
    (h1 : Cube.ShapeCasts Rows) (h2 : Bias.ShapeCasts BiasRow) (h3 : Rows.ShapeCasts Cube) :
    shapeCast Cube (flat (shapeCast Rows x h1) W (shapeCast BiasRow b h2)) h3 = cube x W b := by
  funext i
  obtain ⟨a, s, n, rfl⟩ : ∃ (a : Fin 8) (s : Fin 4096) (n : Fin 256), i = ix3 a s n := ⟨i 0, i 1, i 2, eq_ix3 i⟩
  have hr : a.val * 4096 + s.val < 32768 := by have := a.isLt; have := s.isLt; omega
  rw [shapeCast_apply _ h3 (ix3 a s n) (ix2 ⟨a.val * 4096 + s.val, hr⟩ n) (by
    rw [Shape.rowMajor_val_two, Shape.rowMajor_val_three]
    rfl)]
  rw [flat_ix2, cube_ix3]
  unfold flatAt cubeAt
  rw [biasRow_apply]
  refine congrArg (· + b (ix1 n)) (Finset.sum_congr rfl fun k _ => ?_)
  rw [rows_apply]

end Cert.Linear

end
-- ==== Proof.KernelBlock.lean ====
/-
  What the kernel body computes on one block, read at one entry.

  The body loads a [4096, 256] block of feature rows, the whole [256, 256] weight and the one-row bias, narrows the
  first two to bf16 (no change on extended reals), multiplies rows against rows on the matrix unit into a zero
  accumulator, and adds the bias row broadcast over the 4096 rows.  So entry (p, q) of what it stores is
  ∑ₖ rows[p, k] · weight[q, k] + bias[0, q].
-/
import proofs.«109969_j34600256537491_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The matrix product's dimension numbers: both operands contract their second axis. -/
abbrev D := dot_S4096x256_S256x256_S4096x256_1_1_0_0_n_n

/-- The left operand is read on the output's row … -/
theorem lhs_row (j : S4096x256.Idx) (κ : D.contr.Idx) : (D.lhsIdx j κ 0).val = (j 0).val := by
  unfold DotDims.lhsIdx
  rw [dif_neg (show ¬(0 : Fin S4096x256.rank) ∈ D.lhsBatch by decide), dif_pos (show (0 : Fin S4096x256.rank) ∈ D.lhsNonContracting by decide)]
  rfl
/-- … at the contracted position; -/
theorem lhs_col (j : S4096x256.Idx) (κ : D.contr.Idx) : (D.lhsIdx j κ 1).val = (κ ⟨0, by decide⟩).val :=
  D.lhsIdx_val_of_single rfl j κ
/-- the right operand on the row the output's column names … -/
theorem rhs_row (j : S4096x256.Idx) (κ : D.contr.Idx) : (D.rhsIdx j κ 0).val = (j 1).val := by
  unfold DotDims.rhsIdx
  rw [dif_neg (show ¬(0 : Fin S256x256.rank) ∈ D.rhsBatch by decide), dif_pos (show (0 : Fin S256x256.rank) ∈ D.rhsNonContracting by decide)]
  rfl
/-- … at the contracted position. -/
theorem rhs_col (j : S4096x256.Idx) (κ : D.contr.Idx) : (D.rhsIdx j κ 1).val = (κ ⟨0, by decide⟩).val :=
  D.rhsIdx_val_of_single rfl j κ

/-- The matrix unit's product into a zero accumulator, at entry (p, q): row p of the left operand against row q of the right. -/
theorem product_apply (l : FVec Ideal S4096x256 .bf16) (r : FVec Ideal S256x256 .bf16) (p : Fin 4096) (q : Fin 256) :
    matmul D none l r (constant S4096x256 .f32 0x00000000#32) (ix2 p q) = ∑ k : Fin 256, l (ix2 p k) * r (ix2 q k) := by
  show FloatOps.matmul D none l r (constant S4096x256 .f32 0x00000000#32) (ix2 p q) = _
  rw [Ideal.matmul_constant_zero_apply, ← Equiv.sum_comp (contrEquiv1 D 256 rfl rfl).symm]
  refine Finset.sum_congr rfl fun k _ => ?_
  have hk := contrEquiv1_symm_val D 256 rfl rfl k
  have el : D.lhsIdx (ix2 p q) ((contrEquiv1 D 256 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 256 rfl rfl).symm k) = ix2 q k := funext fun a => Fin.ext (by
    match a with
    | ⟨0, _⟩ => exact rhs_row _ _
    | ⟨1, _⟩ => exact (rhs_col _ _).trans hk)
  rw [el, er]

/-- What the body stores, at entry (p, q) of the block. -/
theorem stored_apply (x0 : Vec Ideal S4096x256 .f32) (x1 : Vec Ideal S256x256 .f32) (x2 : Vec Ideal S1x256 .f32) (p : Fin 4096) (q : Fin 256) :
    k0_pay1 (F := Ideal) x0 x1 x2 (ix2 p q) = (∑ k : Fin 256, x0 (ix2 p k) * x1 (ix2 q k)) + x2 (ix2 (0 : Fin 1) q) := by
  unfold k0_pay1
  refine (addf_apply _ _ _).trans ?_
  refine congrArg₂ (· + ·) ?_ ?_
  · refine (product_apply _ _ p q).trans (Finset.sum_congr rfl fun k _ => ?_)
    refine congrArg₂ (· * ·) ?_ rfl
    exact congrFun (shapeCast_self x0 _) (ix2 p k)
  · refine (broadcastTo_1b_ab_apply _ _ p q).trans ?_
    exact congrFun (shapeCast_self x2 _) (ix2 (0 : Fin 1) q)

end Cert.KernelIdeal.Block

end
-- ==== Proof.KernelArray.lean ====
/-
  The kernel's output array after the eight grid points, as ONE function of the arrays the region finds.

  Grid point t works on rows t·4096 … t·4096 + 4095: its feature block and its output block are block t of their
  arrays, while the weight and the one-row bias are fetched whole at every point.  So what point t writes back is
  block t of the row form `flat` of the three arrays; the eight blocks tile the 32768 rows (row r lies in the
  block of point r / 4096), hence the array ends holding `flat` everywhere.
-/
import proofs.«109969_j34600256537491_2_alg».proof.Proof.Gen.KernelIdeal.Frame
import proofs.«109969_j34600256537491_2_alg».proof.Proof.KernelBlock
import proofs.«109969_j34600256537491_2_alg».proof.Proof.LinearSpec

noncomputable section

open scoped BigOperators

namespace Cert.KernelIdeal.Array

open Cert.KernelIdeal Cert.KernelIdeal.Gen Idealize.ShloMosaic Idealize.ShloMosaic.TcCoe Idealize.ShloMosaic.ValueIdx
open Idealize.SL.Sem Cert.Linear

variable (m : (ℓ : Loc nD τ sig) → Buf (Elt Ideal) ℓ)

theorem zero_offsets : (![0, 0] : Fin 2 → Nat) = fun _ => 0 := funext fun a => by fin_cases a <;> rfl

/-- Where each window's block sits at grid point t: the features' and the output's at block row t, the weight's and
    the bias's at the origin. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's feature block is row t·4096 + p of the feature array. -/
theorem rows_read (c : Dev nD) (t : Fin cfg0.N) (p : Fin 4096) (k : Fin 256) (hr : t.val * 4096 + p.val < 32768) :
    iblk m c 0 t (ix2 p k) = V m c main_v0 (ix2 ⟨t.val * 4096 + p.val, hr⟩ k) := by
  obtain ⟨e0, e1, -⟩ := block_index t
  show V m c main_v0 (((cfg0.win 0).blk t).view.emb (ix2 p k)) = V m c main_v0 (ix2 ⟨t.val * 4096 + p.val, hr⟩ k)
  refine congrArg (V m c main_v0) (funext fun a => Fin.ext ?_)
  match a with
  | ⟨0, _⟩ => show win0_0.index t (0 : Fin 2) * 4096 + 1 * p.val = t.val * 4096 + p.val; omega
  | ⟨1, _⟩ => show win0_0.index t (1 : Fin 2) * 256 + 1 * k.val = k.val; omega

/-- The weight block is the weight. -/
theorem weight_read (c : Dev nD) (t : Fin cfg0.N) (q : Fin 256) (k : Fin 256) :
    iblk m c 1 t (ix2 q k) = V m c main_arg1 (ix2 q k) := by
  obtain ⟨-, -, e2, e3, -⟩ := block_index t
  show V m c main_arg1 (((cfg0.win 1).blk t).view.emb (ix2 q k)) = V m c main_arg1 (ix2 q k)
  refine congrArg (V m c main_arg1) (funext fun a => Fin.ext ?_)
  match a with
  | ⟨0, _⟩ => show win0_1.index t (0 : Fin 2) * 256 + 1 * q.val = q.val; omega
  | ⟨1, _⟩ => show win0_1.index t (1 : Fin 2) * 256 + 1 * k.val = k.val; omega

/-- The bias block is the bias row. -/
theorem bias_read (c : Dev nD) (t : Fin cfg0.N) (q : Fin 256) :
    iblk m c 2 t (ix2 (0 : Fin 1) q) = V m c main_v1 (ix2 (0 : Fin 1) q) := by
  obtain ⟨-, -, -, -, e4, e5, -⟩ := block_index t
  show V m c main_v1 (((cfg0.win 2).blk t).view.emb (ix2 (0 : Fin 1) q)) = V m c main_v1 (ix2 (0 : Fin 1) q)
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 256 + 1 * q.val = q.val; omega

/-- Entry (p, q) of point t's output block is entry (t·4096 + p, q) of the output array. -/
theorem out_emb (t : Fin cfg0.N) (p : Fin 4096) (q : Fin 256) (hr : t.val * 4096 + p.val < 32768) :
    ((cfg0.win 3).blk t).view.emb (ix2 p q) = (ix2 ⟨t.val * 4096 + p.val, hr⟩ q : S32768x256.Idx) := by
  obtain ⟨-, -, -, -, -, -, e6, e7⟩ := block_index t
  refine funext fun a => Fin.ext ?_
  match a with
  | ⟨0, _⟩ => show win0_3.index t (0 : Fin 2) * 4096 + 1 * p.val = t.val * 4096 + p.val; omega
  | ⟨1, _⟩ => show win0_3.index t (1 : Fin 2) * 256 + 1 * q.val = q.val; omega

/-- WHAT POINT t WRITES BACK is block t of the row form of the arrays as the region finds them. -/
theorem flushed_eq (c : Dev nD) (t : Fin cfg0.N) :
    (dats m 0 c).flushed 3 t
      = ((cfg0.win 3).blk t).view.read (Elt Ideal) (flat (V m c main_v0) (V m c main_arg1) (V m c main_v1)) := by
  show (cfg0.win 3).cut (grid0.coords t) ((dats m 0 c).after 3 t) = _
  rw [after0_3]
  unfold out0_3
  rw [View.canon_unit_zero zero_offsets]
  simp only [View.ld_unit_zero (S := S4096x256) zero_offsets, View.ld_unit_zero (S := S256x256) zero_offsets,
    View.ld_unit_zero (S := S1x256) zero_offsets]
  funext j
  obtain ⟨p, q, rfl⟩ : ∃ (p : Fin 4096) (q : Fin 256), j = ix2 p q := ⟨j 0, j 1, eq_ix2 j⟩
  have hr : t.val * 4096 + p.val < 32768 := by
    have ht : t.val < grid0.N := t.isLt
    rw [N_0] at ht
    have := p.isLt; omega
  show k0_pay1 (iblk m c 0 t) (iblk m c 1 t) (iblk m c 2 t) (ix2 p q)
    = flat (V m c main_v0) (V m c main_arg1) (V m c main_v1) (((cfg0.win 3).blk t).view.emb (ix2 p q))
  rw [out_emb t p q hr, flat_ix2]
  refine (Block.stored_apply (iblk m c 0 t) (iblk m c 1 t) (iblk m c 2 t) p q).trans ?_
  unfold flatAt
  rw [bias_read m c t q]
  refine congrArg (· + V m c main_v1 (ix2 (0 : Fin 1) q)) (Finset.sum_congr rfl fun k _ => ?_)
  rw [rows_read m c t p k hr, weight_read m c t q k]

/-- An index of the output array is in point t's block iff its row is among the block's 4096 rows (the block
    spans all 256 columns). -/
theorem mem_blk (t : Fin cfg0.N) (i : S32768x256.Idx) :
    i ∈ ((cfg0.win 3).blk t).view.set
      ↔ ∀ a : Fin 2, win0_3.index t a * S4096x256.size a ≤ (i a).val ∧ (i a).val < win0_3.index t a * S4096x256.size a + S4096x256.size a := by
  show i ∈ ((View.whole main_v2).slice (win0_3.rect t)).set ↔ _
  rw [View.set_slice_whole, Rect.mem_set_unit]
  exact Iff.rfl

/-- Every row of the output array is in the block of the point its row index names. -/
theorem covered (i : S32768x256.Idx) :
    ∃ t : Fin cfg0.N, (cfg0.win 3).flush t = true ∧ i ∈ ((cfg0.win 3).blk t).view.set := by
  have hi0 : (i 0).val < 32768 := (i 0).isLt
  have hi1 : (i 1).val < 256 := (i 1).isLt
  have hN : grid0.N = 8 := N_0
  let t : Fin cfg0.N := ⟨(i 0).val / 4096, by show (i 0).val / 4096 < grid0.N; omega⟩
  have ht : t.val = (i 0).val / 4096 := rfl
  obtain ⟨-, -, -, -, -, -, e6, e7⟩ := block_index t
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 256 ≤ (i 1).val ∧ (i 1).val < win0_3.index t (1 : Fin 2) * 256 + 256; omega

/-- THE OUTPUT ARRAY after the run: the row form of the arrays the region finds. -/
theorem final (c : Dev nD) :
    (dats m 0 c).arrAt 3 cfg0.N = flat (V m c main_v0) (V m c main_arg1) (V m c main_v1) :=
  (dats m 0 c).arrAt_eq_of_cover 3 _ (fun t _ => flushed_eq m c t) covered

end Cert.KernelIdeal.Array

end
-- ==== Proof.KernelRun.lean ====
/-
  The kernel program's run, with its result named.

  Before the region the program re-reads the features as 32768 rows and the bias as one row; the region leaves the
  row form of those (and of the weight, untouched) in its output array; after the region the program re-reads that
  array as [8, 4096, 256].  By `Linear.cube_eq` the result is the batched form of the three arguments.
-/
import proofs.«109969_j34600256537491_2_alg».proof.Proof.Gen.KernelIdeal.Frame
import proofs.«109969_j34600256537491_2_alg».proof.Proof.KernelArray
import proofs.«109969_j34600256537491_2_alg».proof.Proof.LinearSpec
import Idealize.ShloMosaic.Lib.StableHlo.Run

noncomputable section

namespace Cert.KernelIdeal.Run

open Cert.KernelIdeal Cert.KernelIdeal.Gen Idealize.ShloMosaic Idealize.ShloMosaic.TcCoe Idealize.ShloMosaic.ValueIdx
open Idealize.SL.Sem Idealize.ShloMosaic.StableHlo Cert.Linear

variable (m : (ℓ : Loc nD τ sig) → Buf (Elt Ideal) ℓ) (ρ : Dev nD → PrngReg)

/-- The region finds the features re-read as rows … -/
theorem V_rows (c : Dev nD) :
    (V m c main_v0 : S32768x256.Idx → EReal)
      = shapeCast S32768x256 (m ((c : Thread nD τ).loc main_arg0)) Facts₀.shapeCasts_S8x4096x256_S32768x256 := by
  show StableHlo.after hostOps0 (fun b => m (c, b)) (Proc.devRef .tc main_v0) = _
  after_results
  rfl

/-- … and the bias re-read as one row. -/
theorem V_biasRow (c : Dev nD) :
    (V m c main_v1 : S1x256.Idx → EReal)
      = shapeCast S1x256 (m ((c : Thread nD τ).loc main_arg2)) Facts₀.shapeCasts_S256_S1x256 := by
  show StableHlo.after hostOps0 (fun b => m (c, b)) (Proc.devRef .tc main_v1) = _
  after_results
  rfl

/-- The program's result buffer after the lines that follow the region: the region's output array re-read as
    [8, 4096, 256]. -/
theorem tail_eq (c : Dev nD) :
    (Pipeline.afterTail₀ cfgs (dats m) 0 (V0 m) [hostOps1] c main_v3 : S8x4096x256.Idx → EReal)
      = shapeCast S8x4096x256 ((dats m 0 c).arrAt 3 cfg0.N) Facts₀.shapeCasts_S32768x256_S8x4096x256 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = (dats m 0 c).arrAt 3 cfg0.N := Pipeline.withArrays_arr spec0 launch0.win.arr_inj c _ _ 3
  rw [e]
  rfl

/-- The result buffer after the whole program: the batched form of the three arguments. -/
theorem result_eq (c : Dev nD) :
    (Pipeline.afterTail₀ cfgs (dats m) 0 (V0 m) [hostOps1] c main_v3 : S8x4096x256.Idx → EReal)
      = cube (m ((c : Thread nD τ).loc main_arg0)) (m ((c : Thread nD τ).loc main_arg1)) (m ((c : Thread nD τ).loc main_arg2)) := by
  rw [tail_eq, Array.final, V_rows, V_biasRow, V_main_arg1]
  exact cube_eq _ _ _ _ _ _

/-- Every weakly fair execution of the kernel program terminates without a fault, its result buffer holding the
    batched form of the arguments and the arguments unchanged. -/
theorem run : θ_run defs (onTc (τ := τ) (main (F := Ideal))) ⟨m, fun _ => 0, ρ⟩ (fun r => ∀ c : Dev nD,
      r.2.mem ((c.tc : Thread nD τ).loc main_v3)
        = cube (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Run

end
-- ==== Proof.RefValue.lean ====
/-
  The reference, read entry by entry, is the batched form of the linear layer.

  Its program is one contraction of the features' last axis against the weight's second axis, and the bias spread
  over batch and position by two broadcasts, added.  At entry (a, s, n) that is ∑ₖ x[a, s, k] · W[n, k] + b[n].
-/
import proofs.«109969_j34600256537491_2_alg».proof.Proof.Gen.ReferenceIdeal.Read
import proofs.«109969_j34600256537491_2_alg».proof.Proof.LinearSpec

noncomputable section

open scoped BigOperators

namespace Cert.ReferenceIdeal.RefValue

open Cert.ReferenceIdeal Cert.ReferenceIdeal.Read Idealize.ShloMosaic Idealize.ShloMosaic.ValueIdx Cert.Linear

/-- The contraction reads the features at the output's batch and position … -/
theorem lidx_eq (a : Fin 8) (s : Fin 4096) (n : Fin 256) (k : Fin 256) : lidx_main_v0 (ix3 a s n) k = ix3 a s k :=
  funext fun d => Fin.ext (by match d with | ⟨0, _⟩ => rfl | ⟨1, _⟩ => rfl | ⟨2, _⟩ => rfl)
/-- … and the weight on the row the output's channel names. -/
theorem ridx_eq (a : Fin 8) (s : Fin 4096) (n : Fin 256) (k : Fin 256) : ridx_main_v0 (ix3 a s n) k = ix2 n k :=
  funext fun d => Fin.ext (by match d with | ⟨0, _⟩ => rfl | ⟨1, _⟩ => rfl)
/-- The two broadcasts read the bias at the output's channel. -/
theorem bidx_eq (a : Fin 8) (s : Fin 4096) (n : Fin 256) : idx_main_v1 (idx_main_v2 (ix3 a s n)) = ix1 n :=
  funext fun d => Fin.ext (by match d with | ⟨0, _⟩ => rfl)

/-- The reference's result is the batched form of its arguments. -/
theorem result_eq (x : FVec Ideal Cube .f32) (W : FVec Ideal Wt .f32) (b : FVec Ideal Bias .f32) :
    val_main_v3 (F := Ideal) x W b = cube x W b := by
  funext i
  obtain ⟨a, s, n, rfl⟩ : ∃ (a : Fin 8) (s : Fin 4096) (n : Fin 256), i = ix3 a s n := ⟨i 0, i 1, i 2, eq_ix3 i⟩
  rw [val_main_v3_apply, val_main_v0_apply, val_main_v2_apply, val_main_v1_apply, cube_ix3, bidx_eq]
  unfold cubeAt
  refine congrArg (· + b (ix1 n)) (Finset.sum_congr rfl fun k _ => ?_)
  rw [lidx_eq, ridx_eq]

end Cert.ReferenceIdeal.RefValue

end
-- ==== Proof.lean ====
/-
  A linear layer, out[a, s, n] = ∑ₖ x[a, s, k] · W[n, k] + b[n] over x : [8, 4096, 256], W : [256, 256], b : [256],
  computed two ways.

  The kernel program flattens batch and position into 32768 rows, runs a one-axis grid of eight points, each
  multiplying a block of 4096 feature rows against the rows of the weight on the matrix unit (operands narrowed to
  bf16, which changes nothing on extended reals; accumulator zero) and adding the bias row, and re-reads the
  [32768, 256] result as [8, 4096, 256].  The reference contracts the features' last axis against the weight's second
  axis in one product and adds the bias broadcast over batch and position.

  Over the extended reals both results are, entry by entry, the SAME sum of the same 256 products plus the same
  bias entry (`Linear.cube`): the kernel's through the row-major re-reading of the shapes (`Linear.cube_eq`), the
  reference's directly.  No law of arithmetic beyond the equality of those terms is used, so the finiteness of the
  inputs is never opened.  The idealized kernel is the kernel's own text read over the extended reals: no operation
  of it was rewritten.
-/
import proofs.«109969_j34600256537491_2_alg».proof.Defs
import proofs.«109969_j34600256537491_2_alg».proof.Proof.Gen.Kernel
import proofs.«109969_j34600256537491_2_alg».proof.Proof.Gen.Kernel.Frame
import proofs.«109969_j34600256537491_2_alg».proof.Proof.Gen.KernelIdeal
import proofs.«109969_j34600256537491_2_alg».proof.Proof.Gen.KernelIdeal.Frame
import proofs.«109969_j34600256537491_2_alg».proof.Proof.Gen.ReferenceIdeal
import proofs.«109969_j34600256537491_2_alg».proof.Proof.Gen.Pre_finite_inputs
import proofs.«109969_j34600256537491_2_alg».proof.Proof.Gen.ReferenceIdeal.Run
import proofs.«109969_j34600256537491_2_alg».proof.Proof.Gen.ReferenceIdeal.Read
import proofs.«109969_j34600256537491_2_alg».proof.Proof.LinearSpec
import proofs.«109969_j34600256537491_2_alg».proof.Proof.KernelRun
import proofs.«109969_j34600256537491_2_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and keeps its arguments: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for its reading over the extended reals: nothing to preserve. -/
theorem preserves : Cert.preserves_Kernel_KernelIdeal := trivial

/-- From memories that agree on the three arguments both programs end with the batched form of the linear layer in
    their result: the kernel by its run, the reference by its run read entry by entry. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
